-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel

variable [Facts]

def fn {F : FTy → Type} [FloatOps F] (main_arg0 : FVec F S8192x4096 .f32) (main_arg1 : FVec F S8192x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S8192x4096 .f32 := Host.absf main_arg1
  let main_cst_0 : FVec F S_ .f32 := constant S_ .f32 0x7F800000#32
  let main_v5 : FVec F S8192x4096 .f32 := broadcastInDim S8192x4096 ![] bcast_S_S8192x4096 main_cst_0
  let main_v6 : IVec S8192x4096 1 := cmpf .olt main_v4 main_v5
  let main_c_1 : IVec S_ 1 := constantI S_ 1 1#1
  let main_v7 : IVec S_ 1 := (fun x v => Host.reduce IntOp.andi x v reducesTo_S8192x4096_S_d0_1 h_S_) main_v6 main_c_1
  let main_v8 : IVec S_ 1 := andi main_v3 main_v7
  main_v8
-- ==== Kernel.lean ====
abbrev S8192x4096 : Shape := ⟨2, ![8192, 4096]⟩
abbrev S2x8x128 : Shape := ⟨3, ![2, 8, 128]⟩
abbrev S128x4096 : Shape := ⟨2, ![128, 4096]⟩
abbrev S1x8x128 : Shape := ⟨3, ![1, 8, 128]⟩
abbrev S8x128 : Shape := ⟨2, ![8, 128]⟩
abbrev S128 : Shape := ⟨1, ![128]⟩
abbrev S128x1 : Shape := ⟨2, ![128, 1]⟩
abbrev S1 : Shape := ⟨1, ![1]⟩
abbrev S1x1 : Shape := ⟨2, ![1, 1]⟩
abbrev S2x1x1 : Shape := ⟨3, ![2, 1, 1]⟩
abbrev S2 : Shape := ⟨1, ![2]⟩
abbrev S_ : Shape := ⟨0, ![]⟩

abbrev nBuf : Space → Nat
  | .hbm => 17
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S2x8x128, .f32⟩
  | .hbm, ⟨3, _⟩ => ⟨S2x8x128, .f32⟩
  | .hbm, ⟨4, _⟩ => ⟨S2x1x1, .f32⟩
  | .hbm, ⟨5, _⟩ => ⟨S2, .f32⟩
  | .hbm, ⟨6, _⟩ => ⟨S_, .f32⟩
  | .hbm, ⟨7, _⟩ => ⟨S_, .f32⟩
  | .hbm, ⟨8, _⟩ => ⟨S2x1x1, .f32⟩
  | .hbm, ⟨9, _⟩ => ⟨S2, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S1x8x128, .f32⟩
  | .local _ .vmem, ⟨5, _⟩ => ⟨S1x8x128, .f32⟩
  | .local _ .vmem, ⟨6, _⟩ => ⟨S1x8x128, .f32⟩
  | .local _ .vmem, ⟨7, _⟩ => ⟨S1x8x128, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  inb_S128x4096_S128x4096_0_0 : ∀ a, (![0, 0] : Fin 2 → Nat) a + S128x4096.size a ≤ S128x4096.size a
  h_S128x4096 : 0 < S128x4096.numel
  reduces_S128x4096_S128 : S128x4096.Reduces [1] S128
  shapeCasts_S128_S128x1 : S128.ShapeCasts S128x1
  reduces_S128x1_S1 : S128x1.Reduces [0] S1
  shapeCasts_S1_S1x1 : S1.ShapeCasts S1x1
  natLt_1_32 : 1 < 32
  shapeCasts_S1x1_S1x1 : S1x1.ShapeCasts S1x1
  broadcasts_S1x1_S8x128 : S1x1.Broadcasts S8x128
  slices_S2x8x128_S2x1x1_0_0_0 : S2x8x128.Slices ![0, 0, 0] S2x1x1
  shapeCasts_S2x1x1_S2 : S2x1x1.ShapeCasts S2
  reducesTo_S2_S_d0 : S2.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S8192x4096.size a
  hwx0_0 : ∀ i : grid0.Coords, EltTy.bits .f32 = 32 ∨ (Rect.block (s := S8192x4096) S128x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x4096.size a ≤ S8192x4096.size a
  hwx0_1 : ∀ i : grid0.Coords, EltTy.bits .f32 = 32 ∨ (Rect.block (s := S8192x4096) S128x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S2x8x128.size a
  hwx0_2 : ∀ i : grid0.Coords, EltTy.bits .f32 = 32 ∨ (Rect.block (s := S2x8x128) S1x8x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x128.size a ≤ S2x8x128.size a
  hwx0_3 : ∀ i : grid0.Coords, EltTy.bits .f32 = 32 ∨ (Rect.block (s := S2x8x128) S1x8x128.size (cc0_transform_3 i) (hinb0_3 i)).WholeWords (EltTy.packing .f32)

variable [Facts₀]

abbrev win0_0 : Pipeline.Window sig grid0 :=
  Pipeline.Window.ofSpec (Memref.whole main_arg0) S128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x8x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S_ : Shape := ⟨0, ![]⟩
abbrev S8192 : Shape := ⟨1, ![8192]⟩

abbrev nBuf : Space → Nat
  | .hbm => 61
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S_, .f32⟩
  | .hbm, ⟨3, _⟩ => ⟨S8192x4096, .f32⟩
  | .hbm, ⟨4, _⟩ => ⟨S8192x4096, .f32⟩
  | .hbm, ⟨5, _⟩ => ⟨S8192x4096, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S8192x4096, .f32⟩
  | .hbm, ⟨10, _⟩ => ⟨S8192x4096, .f32⟩
  | .hbm, ⟨11, _⟩ => ⟨S8192x4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S8192x4096, .f32⟩
  | .hbm, ⟨18, _⟩ => ⟨S8192x4096, .i1⟩
  | .hbm, ⟨19, _⟩ => ⟨S8192x4096, .i1⟩
  | .hbm, ⟨20, _⟩ => ⟨S8192x4096, .f32⟩
  | .hbm, ⟨21, _⟩ => ⟨S_, .f32⟩
  | .hbm, ⟨22, _⟩ => ⟨S_, .f32⟩
  | .hbm, ⟨23, _⟩ => ⟨S8192x4096, .f32⟩
  | .hbm, ⟨24, _⟩ => ⟨S8192x4096, .f32⟩
  | .hbm, ⟨25, _⟩ => ⟨S_, .f32⟩
  | .hbm, ⟨26, _⟩ => ⟨S8192, .f32⟩
  | .hbm, ⟨27, _⟩ => ⟨S8192x4096, .f32⟩
  | .hbm, ⟨28, _⟩ => ⟨S8192x4096, .f32⟩
  | .hbm, ⟨29, _⟩ => ⟨S_, .f32⟩
  | .hbm, ⟨30, _⟩ => ⟨S_, .f32⟩
  | .hbm, ⟨31, _⟩ => ⟨S8192x4096, .f32⟩
  | .hbm, ⟨32, _⟩ => ⟨S8192x4096, .f32⟩
  | .hbm, ⟨33, _⟩ => ⟨S_, .f32⟩
  | .hbm, ⟨34, _⟩ => ⟨S8192, .f32⟩
  | .hbm, ⟨35, _⟩ => ⟨S8192x4096, .i32⟩
  | .hbm, ⟨36, _⟩ => ⟨S_, .i32⟩
  | .hbm, ⟨37, _⟩ => ⟨S8192, .i32⟩
  | .hbm, ⟨38, _⟩ => ⟨S8192, .f32⟩
  | .hbm, ⟨39, _⟩ => ⟨S8192x4096, .i32⟩
  | .hbm, ⟨40, _⟩ => ⟨S_, .i32⟩
  | .hbm, ⟨41, _⟩ => ⟨S8192, .i32⟩
  | .hbm, ⟨42, _⟩ => ⟨S8192, .f32⟩
  | .hbm, ⟨43, _⟩ => ⟨S8192, .f32⟩
  | .hbm, ⟨44, _⟩ => ⟨S_, .f32⟩
  | .hbm, ⟨45, _⟩ => ⟨S8192, .f32⟩
  | .hbm, ⟨46, _⟩ => ⟨S8192, .i1⟩
  | .hbm, ⟨47, _⟩ => ⟨S8192, .f32⟩
  | .hbm, ⟨48, _⟩ => ⟨S_, .f32⟩
  | .hbm, ⟨49, _⟩ => ⟨S8192, .f32⟩
  | .hbm, ⟨50, _⟩ => ⟨S8192, .f32⟩
  | .hbm, ⟨51, _⟩ => ⟨S8192, .f32⟩
  | .hbm, ⟨52, _⟩ => ⟨S_, .f32⟩
  | .hbm, ⟨53, _⟩ => ⟨S_, .f32⟩
  | .hbm, ⟨54, _⟩ => ⟨S8192, .f32⟩
  | .hbm, ⟨55, _⟩ => ⟨S8192, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_call0_v0 : Ref sig .tc := ⟨.hbm, 22, rfl⟩
abbrev main_call0_v1 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_call1_v0 : Ref sig .tc := ⟨.hbm, 30, rfl⟩
abbrev main_call1_v1 : Ref sig .tc := ⟨.hbm, 31, rfl⟩
abbrev main_v19 : Ref sig .tc := ⟨.hbm, 32, rfl⟩
abbrev main_cst_6 : Ref sig .tc := ⟨.hbm, 33, rfl⟩
abbrev main_v20 : Ref sig .tc := ⟨.hbm, 34, rfl⟩
abbrev main_v21 : Ref sig .tc := ⟨.hbm, 35, rfl⟩
abbrev main_c : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_7 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_8 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_9 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_10 : Ref sig .tc := ⟨.hbm, 52, rfl⟩
abbrev main_call2_v0 : Ref sig .tc := ⟨.hbm, 53, rfl⟩
abbrev main_call2_v1 : Ref sig .tc := ⟨.hbm, 54, rfl⟩
abbrev main_v34 : Ref sig .tc := ⟨.hbm, 55, rfl⟩
abbrev main_cst_11 : Ref sig .tc := ⟨.hbm, 56, rfl⟩
abbrev main_v35 : Ref sig .tc := ⟨.hbm, 57, rfl⟩
abbrev main_cst_12 : Ref sig .tc := ⟨.hbm, 58, rfl⟩
abbrev main_v36 : Ref sig .tc := ⟨.hbm, 59, rfl⟩
abbrev main_v37 : Ref sig .tc := ⟨.hbm, 60, rfl⟩

abbrev nD : Nat := 1
abbrev τ : Topo := Topo.v7x

variable {F : FTy → Type} [FloatOps F]

class Facts₀ : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  reducesTo_S8192x4096_S8192_d1 : S8192x4096.ReducesTo [1] S8192
  natLt_1_32 : 1 < 32
  bcast_S_S8192 : S_.BroadcastsInDim S8192 (![] : Fin 0 → Fin S8192.rank)
  reducesTo_S8192_S_d0 : S8192.ReducesTo [0] S_

variable [Facts₀]

class Facts : Prop extends Facts₀ where

variable [Facts]
-- ==== Proof.LossSpec.lean ====
/-
  The specification. With x the logits and y the labels, both [8192, 4096]:

    loss = (Σ_i Σ_k bce(x_ik, y_ik)) / 2^25  +  (Σ_i cross_i) / 8192

  where bce(a, b) = max(a, 0) − a·b + log(1 + exp(−|a|)) and, per row i, with N the labels equal to zero and P the others,
  cross_i = (Σ_{k∈N} exp x_ik)·(Σ_{k∈P} exp(−x_ik)) / max(|N|·|P|, 1) when |N|·|P| > 0, and 0 otherwise.
  Everything is read on the extended reals; a sum is a sum in the commutative monoid of extended reals, so its grouping is free.
  Also here: the regrouping of the 8192 rows as 2 halves × 32 tiles × 128 rows, and the law that a 32-bit integer sum of at
  most 4096 zero-or-one words, read as a number, is the sum of the words read as numbers.
-/
import Idealize.ShloMosaic.PureOps.Ideal
import Idealize.ShloMosaic.PureOps.Ideal.Laws
import Idealize.ShloMosaic.Lib.ValueIdx
import Idealize.ShloMosaic.Lib.IndicatorCount
import Idealize.ShloMosaic.Lib.KernelVsHost

noncomputable section

namespace Cert.LossSpec

open Idealize.ShloMosaic Idealize.ShloMosaic.ValueIdx

/-! ## The scalar terms -/

/-- The binary-cross-entropy-with-logits term of one entry: max(a, 0) − a·b + log(1 + exp(−|a|)). -/
def bce (a b : EReal) : EReal := max a 0 - a * b + Ideal.log1p (Ideal.exp (-(max a (-a))))

/-- The bit "the label is not zero". -/
def pos (b : EReal) : BitVec 1 := Ideal.cmp .one b 0

/-- A bit as a number: 0 or 1 (the bit widened to a 32-bit word, read signed). -/
def ind (p : BitVec 1) : EReal := (((p.setWidth 32).toInt : ℝ) : EReal)

/-- exp(a) where the label is zero, else 0. -/
def eneg (a b : EReal) : EReal := Scalar.select (~~~pos b) (Ideal.exp a) 0

/-- exp(−a) where the label is not zero, else 0. -/
def epos (a b : EReal) : EReal := Scalar.select (pos b) (Ideal.exp (-a)) 0

/-- A row's cross term from its four sums: sn·sp / max(n0·n1, 1) when n0·n1 > 0, else 0 (the 1 is the f32 word of 1.0). -/
def rowTerm (sn sp n0 n1 : EReal) : EReal :=
  Scalar.select (Ideal.cmp .ogt (n0 * n1) 0) (Ideal.div (sn * sp) (max (n0 * n1) (Ideal.ofBits .f32 0x3F800000#32))) 0

/-- A row's sum of bce terms. -/
def rowBce (x y : Fin 4096 → EReal) : EReal := ∑ k, bce (x k) (y k)

/-- A row's cross term. -/
def rowCross (x y : Fin 4096 → EReal) : EReal :=
  rowTerm (∑ k, eneg (x k) (y k)) (∑ k, epos (x k) (y k)) (∑ k, ind (~~~pos (y k))) (∑ k, ind (pos (y k)))

/-- The loss: the mean of the bce terms over all 2^25 entries plus the mean of the rows' cross terms over the 8192 rows
    (the divisors are the f32 words of 2^25 and 8192). -/
def loss (X Y : Fin 8192 → Fin 4096 → EReal) : EReal :=
  Ideal.div (∑ i, rowBce (X i) (Y i)) (Ideal.ofBits .f32 0x4C000000#32)
    + Ideal.div (∑ i, rowCross (X i) (Y i)) (Ideal.ofBits .f32 0x46000000#32)

/-! ## Sums over index sets -/

/-- A rank-one index is its one coordinate … -/
def idxEquiv1 {n : Nat} : (⟨1, ![n]⟩ : Shape).Idx ≃ Fin n where
  toFun i := i 0
  invFun a := ix1 a
  left_inv i := (eq_ix1 i).symm
  right_inv _ := rfl

/-- … so a sum over rank-one indices is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- Row 128·t + r of the 8192 rows: row r of tile t. -/
def rowOf (t : Fin 64) (r : Fin 128) : Fin 8192 := ⟨128 * t.val + r.val, by have := t.isLt; have := r.isLt; omega⟩

/-- Tile 32·q + s of the 64 tiles: step s of half q. -/
def tileOf (q : Fin 2) (s : Fin 32) : Fin 64 := ⟨32 * q.val + s.val, by have := q.isLt; have := s.isLt; omega⟩

/-- The rows are the tiles' rows: a sum over the 8192 rows is the sum over the 64 tiles of the sums over each tile's 128 rows. -/
theorem sum_rows_tiles {M : Type*} [AddCommMonoid M] (g : Fin 8192 → M) :
    ∑ i, g i = ∑ t : Fin 64, ∑ r : Fin 128, g (rowOf t r) := by
  have e := Equiv.sum_comp (finProdFinEquiv (m := 64) (n := 128)) g
  rw [Fintype.sum_prod_type] at e
  rw [← e]
  refine Finset.sum_congr rfl fun t _ => Finset.sum_congr rfl fun r _ => congrArg g (Fin.ext ?_)
  show r.val + 128 * t.val = 128 * t.val + r.val
  omega

/-- The tiles are the halves' steps: a sum over the 64 tiles is the sum over the 2 halves of the sums over each half's 32 steps. -/
theorem sum_tiles_halves {M : Type*} [AddCommMonoid M] (g : Fin 64 → M) :
    ∑ t, g t = ∑ q : Fin 2, ∑ s : Fin 32, g (tileOf q s) := by
  have e := Equiv.sum_comp (finProdFinEquiv (m := 2) (n := 32)) g
  rw [Fintype.sum_prod_type] at e
  rw [← e]
  refine Finset.sum_congr rfl fun q _ => Finset.sum_congr rfl fun s _ => congrArg g (Fin.ext ?_)
  show s.val + 32 * q.val = 32 * q.val + s.val
  omega

/-! ## A count as a sum of zero-or-one numbers -/

/-- The coercion of the reals into the extended reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem bit_toNat : ∀ b : BitVec 1, b.toNat = if b = 1#1 then 1 else 0 := by decide

/-- A bit as a number is its value as a natural number. -/
theorem ind_eq (p : BitVec 1) : ind p = ((p.toNat : ℝ) : EReal) := by
  unfold ind
  rw [toInt_setWidth_bit]
  norm_cast

/-- A natural number below 2^31, as a 32-bit word read signed, is itself. -/
theorem toInt_ofNat_small (C : ℕ) (h : C < 2 ^ 31) : (BitVec.ofNat 32 C).toInt = (C : ℤ) := by
  have hN : (BitVec.ofNat 32 C).toNat = C := by
    rw [BitVec.toNat_ofNat]; exact Nat.mod_eq_of_lt (by omega)
  rw [BitVec.toInt_eq_toNat_of_lt (by rw [hN]; omega), hN]

/-- THE COUNT. The 32-bit sum, from zero, of n ≤ 4096 bits each widened to 32 bits, read as a signed number, is the sum of the
    bits read as numbers: the sum is the count of the ones, at most 4096, so the 32-bit addition never wraps. -/
theorem count_eq {n : Nat} (hn : n ≤ 4096) (p : Fin n → BitVec 1) :
    ((((Finset.univ : Finset (Fin n)).fold IntOp.addi (0#32) (fun k => (p k).setWidth 32)).toInt : ℝ) : EReal)
      = ∑ k, ind (p k) := by
  rw [IndicatorCount.fold_addi_setWidth_eq_card]
  have hc : (Finset.univ.filter fun k => p k = 1#1).card ≤ n := by
    simpa using Finset.card_filter_le (Finset.univ : Finset (Fin n)) (fun k => p k = 1#1)
  rw [toInt_ofNat_small _ (by omega), Finset.card_filter]
  simp only [ind_eq]
  rw [← coe_sum]
  congr 1
  push_cast
  refine Finset.sum_congr rfl fun k _ => ?_
  rw [bit_toNat]
  split <;> simp

end Cert.LossSpec

end
-- ==== Proof.RefIsSpec.lean ====
/-
  The reference computes the specification.
  Read one operation at a time on the extended reals: the reference's elementwise term is bce; its two masked exponentials are
  exp(x)[y = 0] and exp(−x)[y ≠ 0] (an unordered "not equal" is the ordered one, there being no NaN; a constant broadcast is the
  constant); a host float sum is its initial zero plus the sum; its two counts are 32-bit integer sums of the bits, converted — the
  count law of the specification module; its row guard, quotient and means are the specification's own operations.
-/
import proofs.«157136_j28922309771824_2_alg».proof.Proof.RefReadPatched
import proofs.«157136_j28922309771824_2_alg».proof.Proof.LossSpec
import Idealize.ShloMosaic.PureOps.Reduce
import Idealize.ShloMosaic.PureOps.Ideal.Laws

noncomputable section
open Idealize.ShloMosaic Idealize.ShloMosaic.ValueIdx

namespace Cert.ReferenceIdeal.RefValue
open Cert.ReferenceIdeal Cert.ReferenceIdeal.Gen Cert.ReferenceIdeal.ReadP Cert.LossSpec

variable (x0 x1 : (⟨S8192x4096, .f32⟩ : BufTy).Contents (Elt Ideal))

/-- The row reduction's shape fact in the form that names the inserted lane coordinate. -/
theorem red_rows : S8192x4096.Reduces [1] S8192 := by decide

/-- Row a with lane k inserted is (a, k). -/
theorem lift_rows (a : Fin 8192) (k : Fin 4096) : red_rows.lift (ix1 a) k = ix2 a k :=
  funext fun d => Fin.ext (by match d with | ⟨0, _⟩ => rfl | ⟨1, _⟩ => rfl)

theorem idx16_eq (a : Fin 8192) (k : Fin 4096) : idx_main_v16 (ix1 a) k = ix2 a k :=
  funext fun d => by match d with | ⟨0, _⟩ => rfl | ⟨1, _⟩ => rfl

theorem idx20_eq (a : Fin 8192) (k : Fin 4096) : idx_main_v20 (ix1 a) k = ix2 a k :=
  funext fun d => by match d with | ⟨0, _⟩ => rfl | ⟨1, _⟩ => rfl

/-- The elementwise term is bce. -/
theorem v8_at (j : S8192x4096.Idx) : val_main_v8 (F := Ideal) x0 x1 j = bce (x0 j) (x1 j) := by
  rw [val_main_v8_apply, val_main_v3_apply, val_main_v1_apply, val_main_v0_apply, val_main_cst_apply, val_main_v2_apply,
    val_main_v7_apply, val_main_v6_apply, val_main_v5_apply, val_main_v4_apply]
  show (max (x0 j) (Ideal.ofBits .f32 0x00000000#32) - x0 j * x1 j) + Ideal.log1p (Ideal.exp (-(max (x0 j) (-(x0 j))))) = _
  rw [Ideal.ofBits_zero_f32]
  rfl

/-- The label bit. -/
theorem v12_at (j : S8192x4096.Idx) : val_main_v12 (F := Ideal) x1 j = pos (x1 j) := by
  rw [val_main_v12_apply, val_main_v11_apply, val_main_cst_2_apply]
  show Ideal.cmp .une (x1 j) (Ideal.ofBits .f32 0x00000000#32) = Ideal.cmp .one (x1 j) 0
  rw [Ideal.ofBits_zero_f32]
  rfl

theorem v13_at (j : S8192x4096.Idx) : val_main_v13 (F := Ideal) x1 j = ~~~pos (x1 j) := by
  rw [val_main_v13_apply, v12_at]

/-- exp(x) where the label is zero. -/
theorem v15_at (j : S8192x4096.Idx) : val_main_v15 (F := Ideal) x0 x1 j = eneg (x0 j) (x1 j) := by
  rw [val_main_v15_apply, v13_at, val_main_v14_apply, val_main_call0_v1_apply, val_main_call0_v0_apply, val_main_cst_3_apply]
  show Scalar.select (~~~pos (x1 j)) (Ideal.exp (x0 j)) (Ideal.ofBits .f32 0x00000000#32) = _
  rw [Ideal.ofBits_zero_f32]
  rfl

/-- exp(−x) where the label is not zero. -/
theorem v19_at (j : S8192x4096.Idx) : val_main_v19 (F := Ideal) x0 x1 j = epos (x0 j) (x1 j) := by
  rw [val_main_v19_apply, v12_at, val_main_v18_apply, val_main_v17_apply, val_main_call1_v1_apply, val_main_call1_v0_apply,
    val_main_cst_5_apply]
  show Scalar.select (pos (x1 j)) (Ideal.exp (-(x0 j))) (Ideal.ofBits .f32 0x00000000#32) = _
  rw [Ideal.ofBits_zero_f32]
  rfl

/-- Row a's sum of exp(x) over the zero labels. -/
theorem v16_at (a : Fin 8192) :
    val_main_v16 (F := Ideal) x0 x1 (ix1 a) = ∑ k : Fin 4096, eneg (x0 (ix2 a k)) (x1 (ix2 a k)) := by
  rw [val_main_v16_apply, val_main_cst_4_apply]
  show Ideal.ofBits .f32 0x00000000#32 + _ = _
  rw [Ideal.ofBits_zero_f32, zero_add]
  refine Finset.sum_congr rfl fun k _ => ?_
  rw [idx16_eq, v15_at]

/-- Row a's sum of exp(−x) over the nonzero labels. -/
theorem v20_at (a : Fin 8192) :
    val_main_v20 (F := Ideal) x0 x1 (ix1 a) = ∑ k : Fin 4096, epos (x0 (ix2 a k)) (x1 (ix2 a k)) := by
  rw [val_main_v20_apply, val_main_cst_6_apply]
  show Ideal.ofBits .f32 0x00000000#32 + _ = _
  rw [Ideal.ofBits_zero_f32, zero_add]
  refine Finset.sum_congr rfl fun k _ => ?_
  rw [idx20_eq, v19_at]

/-- Row a's count of zero labels: the integer sum of the bits, converted. -/
theorem v23_at (a : Fin 8192) :
    val_main_v23 (F := Ideal) x1 (ix1 a) = ∑ k : Fin 4096, ind (~~~pos (x1 (ix2 a k))) := by
  rw [val_main_v23_apply]
  show ((((val_main_v22 (F := Ideal) x1 (ix1 a)).toInt : ℝ)) : EReal) = _
  unfold val_main_v22
  rw [Host.reduce_eq_fold_single IntOp.addi _ _ reducesTo_S8192x4096_S8192_d1 red_rows h_S_ (ix1 a)]
  have e : (val_main_v21 (F := Ideal) x1 ∘ red_rows.lift (ix1 a)) = fun k : Fin 4096 => (~~~pos (x1 (ix2 a k))).setWidth 32 := by
    funext k
    exact congrArg (BitVec.setWidth 32) ((congrArg (val_main_v13 (F := Ideal) x1) (lift_rows a k)).trans (v13_at x1 (ix2 a k)))
  rw [e, val_main_c_apply]
  exact count_eq (n := 4096) le_rfl (fun k => ~~~pos (x1 (ix2 a k)))

/-- Row a's count of nonzero labels. -/
theorem v26_at (a : Fin 8192) :
    val_main_v26 (F := Ideal) x1 (ix1 a) = ∑ k : Fin 4096, ind (pos (x1 (ix2 a k))) := by
  rw [val_main_v26_apply]
  show ((((val_main_v25 (F := Ideal) x1 (ix1 a)).toInt : ℝ)) : EReal) = _
  unfold val_main_v25
  rw [Host.reduce_eq_fold_single IntOp.addi _ _ reducesTo_S8192x4096_S8192_d1 red_rows h_S_ (ix1 a)]
  have e : (val_main_v24 (F := Ideal) x1 ∘ red_rows.lift (ix1 a)) = fun k : Fin 4096 => (pos (x1 (ix2 a k))).setWidth 32 := by
    funext k
    exact congrArg (BitVec.setWidth 32) ((congrArg (val_main_v12 (F := Ideal) x1) (lift_rows a k)).trans (v12_at x1 (ix2 a k)))
  rw [e, val_main_c_7_apply]
  exact count_eq (n := 4096) le_rfl (fun k => pos (x1 (ix2 a k)))

/-- Row a's cross term. -/
theorem v34_at (a : Fin 8192) :
    val_main_v34 (F := Ideal) x0 x1 (ix1 a) = rowCross (fun k => x0 (ix2 a k)) (fun k => x1 (ix2 a k)) := by
  rw [val_main_v34_apply, val_main_v29_apply, val_main_v33_apply, val_main_v30_apply, val_main_v32_apply, val_main_v27_apply,
    val_main_v28_apply, val_main_cst_8_apply, val_main_v31_apply, val_main_cst_9_apply, val_main_call2_v1_apply,
    val_main_call2_v0_apply, val_main_cst_10_apply, v16_at, v20_at, v23_at, v26_at]
  show Scalar.select (Ideal.cmp .ogt (_ * _) (Ideal.ofBits .f32 0x00000000#32))
      (Ideal.div (_ * _) (max (_ * _) (Ideal.ofBits .f32 0x3F800000#32))) (Ideal.ofBits .f32 0x00000000#32) = _
  rw [Ideal.ofBits_zero_f32]
  rfl

/-- THE REFERENCE IS THE SPECIFICATION: its result, at its one index, is the loss of the two argument arrays. -/
theorem ref_is_loss (i : S_.Idx) :
    val_main_v37 (F := Ideal) x0 x1 i = loss (fun a k => x0 (ix2 a k)) (fun a k => x1 (ix2 a k)) := by
  have h1 : ∑ j : S8192x4096.Idx, val_main_v8 (F := Ideal) x0 x1 j
      = ∑ a : Fin 8192, rowBce (fun k => x0 (ix2 a k)) (fun k => x1 (ix2 a k)) :=
    (sum_idx2 (n0 := 8192) (n1 := 4096) (val_main_v8 (F := Ideal) x0 x1)).trans
      (Finset.sum_congr rfl fun a _ => Finset.sum_congr rfl fun k _ => v8_at x0 x1 (ix2 a k))
  have h2 : ∑ j : S8192.Idx, val_main_v34 (F := Ideal) x0 x1 j
      = ∑ a : Fin 8192, rowCross (fun k => x0 (ix2 a k)) (fun k => x1 (ix2 a k)) :=
    (sum_idx1 (n := 8192) (val_main_v34 (F := Ideal) x0 x1)).trans (Finset.sum_congr rfl fun a _ => v34_at x0 x1 a)
  rw [val_main_v37_apply, val_main_v10_apply, val_main_v36_apply, val_main_v9_apply, val_main_v35_apply, h1, h2,
    val_main_cst_0_apply, val_main_cst_11_apply, val_main_cst_1_apply, val_main_cst_12_apply]
  show Ideal.div (Ideal.ofBits .f32 0x00000000#32 + _) (Ideal.ofBits .f32 0x4C000000#32)
      + Ideal.div (Ideal.ofBits .f32 0x00000000#32 + _) (Ideal.ofBits .f32 0x46000000#32) = _
  rw [Ideal.ofBits_zero_f32, zero_add, zero_add]
  rfl

end Cert.ReferenceIdeal.RefValue

end
-- ==== Proof.KernelFound.lean ====
/-
  What the body leaves in the two accumulator blocks, case by case, as values.
  At the first step of a half (the reset case) each block ends as the payload of the accumulating store applied to the zero block
  the reset stored; at every other step, as that payload applied to what the step before left. The payloads are the body's own
  pure terms: the [1,1] total of the tile's bce terms broadcast and added into block 0, the [1,1] total of the tile's row cross
  terms broadcast and added into block 1.
-/
import proofs.«157136_j28922309771824_2_alg».proof.Proof.Gen.KernelIdeal.Frame
import Idealize.ShloMosaic.Lib.Pipeline.Value
import Idealize.ShloMosaic.Lib.Tactic

set_option maxRecDepth 16384

noncomputable section
open Idealize.ShloMosaic Idealize.ShloMosaic.TcCoe Idealize.SL.Sem Idealize.ShloMosaic.Tactic
open Idealize.ShloMosaic.Pipeline (Dat)

namespace Cert.KernelIdeal.Found
open Cert.KernelIdeal Cert.KernelIdeal.Gen
variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- A later step, block 0: the bce total of the tile added into what the step before left. -/
theorem out_B_2 (c : Dev nD) (i : grid0.Coords) (a2 : Memref sig .tc .vmem S128x4096 .f32) (h2 : a2.IsWhole) (a3 : Memref sig .tc .vmem S128x4096 .f32) (h3 : a3.IsWhole)
    (a4 : Memref sig .tc .vmem S1x8x128 .f32) (h4 : a4.IsWhole) (a5 : Memref sig .tc .vmem S1x8x128 .f32) (h5 : a5.IsWhole) (hc : ¬cond0_0 i)
    (x0 x1 : Vec F S128x4096 .f32) (xo2 xo3 : Vec F S1x8x128 .f32) :
    out0_B_2 c i a2 h2 a3 h3 a4 h4 a5 h5 hc x0 x1 xo2 xo3 = k0_pay1 (k0_pay5 x0 x1) xo2 := by
  unfold out0_B_2
  rw [View.read_writes_eq_canon _ _ _ (cover0_B_2 c i a2 h2 a3 h3 a4 h4 a5 h5 hc x0 x1 xo2 xo3)]
  unfold kernelRun0_B
  dsimp only
  sl_unfold_words
  rw [View.canon_unit_zero hz3]
  simp only [View.readAt_eq_ld, h2.read_unread, h3.read_unread, h4.read_unread, h5.read_unread,
    View.ld_unit_zero (S := S128x4096) hz2, View.ld_unit_zero (S := S1x8x128) hz3]

/-- A later step, block 1: the cross total of the tile added into what the step before left. -/
theorem out_B_3 (c : Dev nD) (i : grid0.Coords) (a2 : Memref sig .tc .vmem S128x4096 .f32) (h2 : a2.IsWhole) (a3 : Memref sig .tc .vmem S128x4096 .f32) (h3 : a3.IsWhole)
    (a4 : Memref sig .tc .vmem S1x8x128 .f32) (h4 : a4.IsWhole) (a5 : Memref sig .tc .vmem S1x8x128 .f32) (h5 : a5.IsWhole) (hc : ¬cond0_0 i)
    (x0 x1 : Vec F S128x4096 .f32) (xo2 xo3 : Vec F S1x8x128 .f32) :
    out0_B_3 c i a2 h2 a3 h3 a4 h4 a5 h5 hc x0 x1 xo2 xo3
      = k0_pay2 (k0_pay8 x0 x1) (k0_pay9 x0 x1) (k0_pay10 x1) (k0_pay11 x1) xo3 := by
  unfold out0_B_3
  rw [View.read_writes_eq_canon _ _ _ (cover0_B_3 c i a2 h2 a3 h3 a4 h4 a5 h5 hc x0 x1 xo2 xo3)]
  unfold kernelRun0_B
  dsimp only
  sl_unfold_words
  rw [View.canon_unit_zero hz3]
  simp only [View.readAt_eq_ld, h2.read_unread, h3.read_unread, h4.read_unread, h5.read_unread,
    View.ld_unit_zero (S := S128x4096) hz2, View.ld_unit_zero (S := S1x8x128) hz3]

/-- The first step of a half, block 0: the bce total of the tile added into the zero block the reset stored. -/
theorem out_A_2 (c : Dev nD) (i : grid0.Coords) (a2 : Memref sig .tc .vmem S128x4096 .f32) (h2 : a2.IsWhole) (a3 : Memref sig .tc .vmem S128x4096 .f32) (h3 : a3.IsWhole)
    (a4 : Memref sig .tc .vmem S1x8x128 .f32) (h4 : a4.IsWhole) (a5 : Memref sig .tc .vmem S1x8x128 .f32) (h5 : a5.IsWhole) (hc : cond0_0 i)
    (x0 x1 : Vec F S128x4096 .f32) :
    out0_A_2 c i a2 h2 a3 h3 a4 h4 a5 h5 hc x0 x1 = k0_pay1 (k0_pay5 x0 x1) (k0_pay3 (F := F)) := by
  unfold out0_A_2
  rw [View.read_writes_eq_canon _ _ _ (cover0_A_2 c i a2 h2 a3 h3 a4 h4 a5 h5 hc x0 x1)]
  unfold kernelRun0_A
  dsimp only
  sl_unfold_words
  rw [View.canon_cons_unit_zero (S := S1x8x128) hz3, View.readCov_unit_zero (S := S1x8x128) _ hz3]
  simp only [View.readAt_eq_ld, h2.read_unread, h3.read_unread, h4.read_unread, h5.read_unread,
    View.ld_unit_zero (S := S128x4096) hz2, View.ld_unit_zero (S := S1x8x128) hz3]

/-- The first step of a half, block 1: the cross total of the tile added into the zero block the reset stored. -/
theorem out_A_3 (c : Dev nD) (i : grid0.Coords) (a2 : Memref sig .tc .vmem S128x4096 .f32) (h2 : a2.IsWhole) (a3 : Memref sig .tc .vmem S128x4096 .f32) (h3 : a3.IsWhole)
    (a4 : Memref sig .tc .vmem S1x8x128 .f32) (h4 : a4.IsWhole) (a5 : Memref sig .tc .vmem S1x8x128 .f32) (h5 : a5.IsWhole) (hc : cond0_0 i)
    (x0 x1 : Vec F S128x4096 .f32) :
    out0_A_3 c i a2 h2 a3 h3 a4 h4 a5 h5 hc x0 x1
      = k0_pay2 (k0_pay8 x0 x1) (k0_pay9 x0 x1) (k0_pay10 x1) (k0_pay11 x1) (k0_pay4 (F := F)) := by
  unfold out0_A_3
  rw [View.read_writes_eq_canon _ _ _ (cover0_A_3 c i a2 h2 a3 h3 a4 h4 a5 h5 hc x0 x1)]
  unfold kernelRun0_A
  dsimp only
  sl_unfold_words
  rw [View.canon_cons_unit_zero (S := S1x8x128) hz3, View.readCov_unit_zero (S := S1x8x128) _ hz3]
  simp only [View.readAt_eq_ld, h2.read_unread, h3.read_unread, h4.read_unread, h5.read_unread,
    View.ld_unit_zero (S := S128x4096) hz2, View.ld_unit_zero (S := S1x8x128) hz3]

end Cert.KernelIdeal.Found

end
-- ==== Proof.KernelPayload.lean ====
/-
  The body's arithmetic, read on the extended reals at an index.
  For a tile's two input blocks x (logits) and y (labels), both [128, 4096]:
    the [1,1] bce total is  Σ_r Σ_k bce(x_rk, y_rk);
    the four [128,1] row columns are, at row r, Σ_k exp(x_rk)[y_rk = 0], Σ_k exp(−x_rk)[y_rk ≠ 0], and the two counts;
    the [1,1] cross total is Σ_r of the row term of those four;
  and each accumulating store adds its total, broadcast, to every entry of the [1,8,128] block it read.
  A lane sum is the sum over the lane coordinate; a column [128] viewed [128,1], a [1] viewed [1,1], a [1,1] broadcast to
  [8,128] and an [8,128] viewed [1,8,128] read the same entries at the evident coordinates.
-/
import proofs.«157136_j28922309771824_2_alg».proof.Proof.Gen.KernelIdeal.Skeleton
import proofs.«157136_j28922309771824_2_alg».proof.Proof.LossSpec
import Idealize.ShloMosaic.Lib.Pipeline.Value
import Idealize.ShloMosaic.Lib.ValueLayout
import Idealize.ShloMosaic.PureOps.Ideal.Laws
import Idealize.ShloMosaic.Lib.KernelVsHost

noncomputable section
open Idealize.ShloMosaic Idealize.ShloMosaic.ValueIdx

namespace Cert.KernelIdeal.Payload
open Cert.KernelIdeal Cert.KernelIdeal.Gen Cert.LossSpec

/-! ## Layout steps of this body, read at coordinates -/

section Layout
variable {α : Type}

/-- A column [128] viewed [128, 1] reads, at (r, 0), entry r. -/
theorem col_cast (v : S128.Idx → α) (h : S128.ShapeCasts S128x1) (r : Fin 128) (z : Fin 1) :
    shapeCast S128x1 v h (ix2 r z) = v (ix1 r) :=
  shapeCast_apply v h _ _ (by
    have hz : z.val = 0 := by omega
    rw [Shape.rowMajor_val_one, Shape.rowMajor_val_two]
    show r.val = r.val * 1 + z.val
    omega)

/-- A [1] viewed [1, 1] reads its one entry. -/
theorem one_cast (v : S1.Idx → α) (h : S1.ShapeCasts S1x1) (j : S1x1.Idx) :
    shapeCast S1x1 v h j = v (ix1 0) :=
  shapeCast_apply v h _ _ (by
    have h0 : (j 0).val < 1 := (j 0).isLt
    have h1 : (j 1).val < 1 := (j 1).isLt
    rw [Shape.rowMajor_val_one, Shape.rowMajor_val_two]
    show (0 : Nat) = (j 0).val * 1 + (j 1).val
    omega)

/-- A [1, 1] broadcast to [8, 128] reads its one entry everywhere. -/
theorem bcast_one (v : S1x1.Idx → α) (h : S1x1.Broadcasts S8x128) (j : S8x128.Idx) :
    broadcastTo S8x128 v h j = v (ix2 0 0) :=
  broadcastTo_apply v h j (ix2 0 0) (fun a => by match a with | ⟨0, _⟩ => rfl | ⟨1, _⟩ => rfl)

/-- An index of a [1, 8, 128] block is (0, a row, a lane). -/
theorem blk_idx (y : S1x8x128.Idx) : ∃ (a : Fin 8) (b : Fin 128), y = ix3 (0 : Fin 1) a b :=
  ⟨y 1, y 2, funext fun d => by
    match d with
    | ⟨0, _⟩ => exact Fin.ext (by have h : (y 0).val < 1 := (y 0).isLt; show (y 0).val = 0; omega)
    | ⟨1, _⟩ => rfl
    | ⟨2, _⟩ => rfl⟩

end Layout

/-! ## The two reductions of this body -/

/-- A lane sum of a [128, 4096] array at row r: the sum over the 4096 lanes. -/
theorem lane_sum (v : FVec Ideal S128x4096 .f32) (h : S128x4096.Reduces [1] S128) (hφ : FKind.Formats .f32)
    (hacc : (0x00000000#32 : BitVec 32) = FKind.add.neutral .f32 hφ) (r : Fin 128) :
    multiReduction (F := Ideal) .add [1] S128 v 0x00000000#32 h hφ hacc (ix1 r) = ∑ k : Fin 4096, v (ix2 r k) := by
  refine (Ideal.multiReduction_add_single v _ h hφ hacc (ix1 r)).trans ?_
  refine Finset.sum_congr rfl fun k _ => congrArg v (funext fun a => Fin.ext ?_)
  match a with
  | ⟨0, _⟩ => rfl
  | ⟨1, _⟩ => rfl

/-- A sum down the one column of a [128, 1] array: the sum over the 128 rows. -/
theorem col_sum (v : FVec Ideal S128x1 .f32) (h : S128x1.Reduces [0] S1) (hφ : FKind.Formats .f32)
    (hacc : (0x00000000#32 : BitVec 32) = FKind.add.neutral .f32 hφ) :
    multiReduction (F := Ideal) .add [0] S1 v 0x00000000#32 h hφ hacc (ix1 0) = ∑ r : Fin 128, v (ix2 r 0) := by
  refine (Ideal.multiReduction_add_single v _ h hφ hacc (ix1 0)).trans ?_
  refine Finset.sum_congr rfl fun r _ => congrArg v (funext fun a => Fin.ext ?_)
  match a with
  | ⟨0, _⟩ => rfl
  | ⟨1, _⟩ => rfl

/-! ## The payloads -/

/-- The reset stores the zero block. -/
theorem pay3_apply (y : S1x8x128.Idx) : k0_pay3 (F := Ideal) y = 0 := by
  obtain ⟨a, b, rfl⟩ := blk_idx y
  unfold k0_pay3
  refine (shapeCast_ab_1ab_apply _ _ (0 : Fin 1) a b).trans ?_
  exact Ideal.ofBits_zero_f32

theorem pay4_apply (y : S1x8x128.Idx) : k0_pay4 (F := Ideal) y = 0 := by
  obtain ⟨a, b, rfl⟩ := blk_idx y
  unfold k0_pay4
  refine (shapeCast_ab_1ab_apply _ _ (0 : Fin 1) a b).trans ?_
  exact Ideal.ofBits_zero_f32

/-- The accumulating store of block 0: every entry of the block read, plus the [1,1] total. -/
theorem pay1_apply (v18 : FVec Ideal S1x1 .f32) (v53 : Vec Ideal S1x8x128 .f32) (y : S1x8x128.Idx) :
    k0_pay1 (F := Ideal) v18 v53 y = v53 y + v18 (ix2 0 0) := by
  obtain ⟨a, b, rfl⟩ := blk_idx y
  unfold k0_pay1
  refine (shapeCast_ab_1ab_apply _ _ (0 : Fin 1) a b).trans ?_
  show shapeCast S8x128 v53 _ (ix2 a b) + broadcastTo S8x128 (shapeCast S1x1 v18 _) _ (ix2 a b) = _
  refine congrArg₂ (· + ·) (shapeCast_1ab_ab_apply v53 _ a b) ((bcast_one _ _ _).trans ?_)
  rw [shapeCast_self]

/-- The label bit of the body is the specification's. -/
theorem pay6_apply (x1 : Vec Ideal S128x4096 .f32) (i : S128x4096.Idx) : k0_pay6 (F := Ideal) x1 i = pos (x1 i) := by
  show Ideal.cmp .one (x1 i) (Ideal.ofBits .f32 0x00000000#32) = Ideal.cmp .one (x1 i) 0
  rw [Ideal.ofBits_zero_f32]

/-- Its complement (an exclusive-or with the all-ones bit). -/
theorem pay7_apply (x1 : Vec Ideal S128x4096 .f32) (i : S128x4096.Idx) : k0_pay7 (F := Ideal) x1 i = ~~~pos (x1 i) := by
  show IntOp.xori (k0_pay6 (F := Ideal) x1 i) 1#1 = _
  rw [xori_one_eq_not, pay6_apply]

/-- The bce total of a tile. -/
theorem pay5_apply (x0 x1 : Vec Ideal S128x4096 .f32) (j : S1x1.Idx) :
    k0_pay5 (F := Ideal) x0 x1 j = ∑ r : Fin 128, rowBce (fun k => x0 (ix2 r k)) (fun k => x1 (ix2 r k)) := by
  unfold k0_pay5
  refine (one_cast _ _ j).trans ?_
  refine (col_sum _ _ _ _).trans ?_
  refine Finset.sum_congr rfl fun r _ => ?_
  refine (col_cast _ _ r 0).trans ?_
  refine (lane_sum _ _ _ _ r).trans ?_
  refine Finset.sum_congr rfl fun k _ => ?_
  show (max (x0 (ix2 r k)) (Ideal.ofBits .f32 0x00000000#32) - x0 (ix2 r k) * x1 (ix2 r k))
      + Ideal.log1p (Ideal.exp (Ideal.ofBits .f32 0x00000000#32 - max (x0 (ix2 r k)) (-(x0 (ix2 r k))))) = _
  rw [Ideal.ofBits_zero_f32, zero_sub]
  rfl

/-- Row r's sum of exp(x) over the zero labels. -/
theorem pay8_apply (x0 x1 : Vec Ideal S128x4096 .f32) (r : Fin 128) (z : Fin 1) :
    k0_pay8 (F := Ideal) x0 x1 (ix2 r z) = ∑ k : Fin 4096, eneg (x0 (ix2 r k)) (x1 (ix2 r k)) := by
  unfold k0_pay8
  refine (col_cast _ _ r z).trans ?_
  refine (lane_sum _ _ _ _ r).trans ?_
  refine Finset.sum_congr rfl fun k _ => ?_
  show Scalar.select (k0_pay7 (F := Ideal) x1 (ix2 r k)) (Ideal.exp (x0 (ix2 r k))) (Ideal.ofBits .f32 0x00000000#32) = _
  rw [pay7_apply, Ideal.ofBits_zero_f32]
  rfl

/-- Row r's sum of exp(−x) over the nonzero labels. -/
theorem pay9_apply (x0 x1 : Vec Ideal S128x4096 .f32) (r : Fin 128) (z : Fin 1) :
    k0_pay9 (F := Ideal) x0 x1 (ix2 r z) = ∑ k : Fin 4096, epos (x0 (ix2 r k)) (x1 (ix2 r k)) := by
  unfold k0_pay9
  refine (col_cast _ _ r z).trans ?_
  refine (lane_sum _ _ _ _ r).trans ?_
  refine Finset.sum_congr rfl fun k _ => ?_
  show Scalar.select (k0_pay6 (F := Ideal) x1 (ix2 r k)) (Ideal.exp (Ideal.ofBits .f32 0x00000000#32 - x0 (ix2 r k)))
      (Ideal.ofBits .f32 0x00000000#32) = _
  rw [pay6_apply, Ideal.ofBits_zero_f32, zero_sub]
  rfl

/-- Row r's count of zero labels. -/
theorem pay10_apply (x1 : Vec Ideal S128x4096 .f32) (r : Fin 128) (z : Fin 1) :
    k0_pay10 (F := Ideal) x1 (ix2 r z) = ∑ k : Fin 4096, ind (~~~pos (x1 (ix2 r k))) := by
  unfold k0_pay10
  refine (col_cast _ _ r z).trans ?_
  refine (lane_sum _ _ _ _ r).trans ?_
  refine Finset.sum_congr rfl fun k _ => ?_
  show ((((k0_pay7 (F := Ideal) x1 (ix2 r k)).setWidth 32).toInt : ℝ) : EReal) = _
  rw [pay7_apply]
  rfl

/-- The nonzero-label bit widened to a word. -/
theorem pay11_apply (x1 : Vec Ideal S128x4096 .f32) (i : S128x4096.Idx) :
    k0_pay11 (F := Ideal) x1 i = (pos (x1 i)).setWidth 32 := by
  show (k0_pay6 (F := Ideal) x1 i).setWidth 32 = _
  rw [pay6_apply]

/-- The accumulating store of block 1, over the four row columns and the bit words: every entry of the block read, plus the
    sum over the rows of the row term. -/
theorem pay2_apply (v26 v33 v37 : FVec Ideal S128x1 .f32) (v38 : IVec S128x4096 32) (v61 : Vec Ideal S1x8x128 .f32)
    (y : S1x8x128.Idx) :
    k0_pay2 (F := Ideal) v26 v33 v37 v38 v61 y
      = v61 y + ∑ r : Fin 128, rowTerm (v26 (ix2 r 0)) (v33 (ix2 r 0)) (v37 (ix2 r 0))
          (∑ k : Fin 4096, ((((v38 (ix2 r k)).toInt : ℝ)) : EReal)) := by
  obtain ⟨a, b, rfl⟩ := blk_idx y
  unfold k0_pay2
  refine (shapeCast_ab_1ab_apply _ _ (0 : Fin 1) a b).trans ?_
  refine congrArg₂ (· + ·) (shapeCast_1ab_ab_apply v61 _ a b) ?_
  refine (bcast_one _ _ _).trans ?_
  rw [shapeCast_self]
  refine (one_cast _ _ _).trans ?_
  refine (col_sum _ _ _ _).trans ?_
  refine Finset.sum_congr rfl fun r _ => ?_
  have hX : shapeCast S128x1 (multiReduction (F := Ideal) .add [1] S128 (sitofp .f32 v38) 0x00000000#32 reduces_S128x4096_S128 (.inl rfl) rfl)
        shapeCasts_S128_S128x1 (ix2 r 0)
      = ∑ k : Fin 4096, ((((v38 (ix2 r k)).toInt : ℝ)) : EReal) :=
    (col_cast _ _ r 0).trans ((lane_sum _ _ _ _ r).trans rfl)
  refine (congrArg (fun n1 : EReal => Scalar.select (Ideal.cmp .ogt (v37 (ix2 r 0) * n1) (Ideal.ofBits .f32 0x00000000#32))
      (Ideal.div (v26 (ix2 r 0) * v33 (ix2 r 0)) (max (v37 (ix2 r 0) * n1) (Ideal.ofBits .f32 0x3F800000#32)))
      (Ideal.ofBits .f32 0x00000000#32)) hX).trans ?_
  rw [Ideal.ofBits_zero_f32]
  rfl

/-- The cross total of a tile added into the block read. -/
theorem pay2_tile (x0 x1 : Vec Ideal S128x4096 .f32) (v61 : Vec Ideal S1x8x128 .f32) (y : S1x8x128.Idx) :
    k0_pay2 (F := Ideal) (k0_pay8 x0 x1) (k0_pay9 x0 x1) (k0_pay10 x1) (k0_pay11 x1) v61 y
      = v61 y + ∑ r : Fin 128, rowCross (fun k => x0 (ix2 r k)) (fun k => x1 (ix2 r k)) := by
  rw [pay2_apply]
  refine congrArg (v61 y + ·) (Finset.sum_congr rfl fun r _ => ?_)
  rw [pay8_apply, pay9_apply, pay10_apply]
  simp only [pay11_apply]
  rfl

/-- The bce total of a tile added into the block read. -/
theorem pay1_tile (x0 x1 : Vec Ideal S128x4096 .f32) (v53 : Vec Ideal S1x8x128 .f32) (y : S1x8x128.Idx) :
    k0_pay1 (F := Ideal) (k0_pay5 x0 x1) v53 y
      = v53 y + ∑ r : Fin 128, rowBce (fun k => x0 (ix2 r k)) (fun k => x1 (ix2 r k)) := by
  rw [pay1_apply, pay5_apply]

end Cert.KernelIdeal.Payload

end
-- ==== Proof.KernelAcc.lean ====
/-
  The two accumulator arrays after the run.
  The grid has 64 points: point t = 32·q + s is step s of half q, and reads tile t (rows 128·t … 128·t + 127) of both inputs.
  Each output block (one per half) is reset at step 0 and added into at every step, and written back after step 31; so after the
  run, every entry of block q of output 0 is 0 + Σ_{s<32} (bce total of tile 32·q + s), and likewise output 1 with the cross totals.
  The induction over the steps is the library's fold over a run of consecutive points; the block a point writes back is read
  where the window's rectangle says, and the two blocks written back (after steps 31 and 63) cover the array.
-/
import proofs.«157136_j28922309771824_2_alg».proof.Proof.Gen.KernelIdeal.Frame
import proofs.«157136_j28922309771824_2_alg».proof.Proof.KernelFound
import proofs.«157136_j28922309771824_2_alg».proof.Proof.KernelPayload
import Idealize.ShloMosaic.Lib.Pipeline.Value

set_option maxRecDepth 16384

noncomputable section
open Idealize.ShloMosaic Idealize.ShloMosaic.TcCoe Idealize.SL.Sem Idealize.ShloMosaic.ValueIdx
open Idealize.ShloMosaic.Pipeline (Dat)

namespace Cert.KernelIdeal.Acc
open Cert.KernelIdeal Cert.KernelIdeal.Gen Cert.LossSpec

variable (m : (ℓ : Loc nD τ sig) → Buf (Elt Ideal) ℓ)

/-- The bce total of a pair of [128, 4096] blocks: the sum over its rows of the rows' bce sums. -/
def blkBce (x0 x1 : Vec Ideal S128x4096 .f32) : EReal :=
  ∑ r : Fin 128, rowBce (fun k => x0 (ix2 r k)) (fun k => x1 (ix2 r k))

/-- The cross total of a pair of [128, 4096] blocks: the sum over its rows of the rows' cross terms. -/
def blkCross (x0 x1 : Vec Ideal S128x4096 .f32) : EReal :=
  ∑ r : Fin 128, rowCross (fun k => x0 (ix2 r k)) (fun k => x1 (ix2 r k))

/-- Tile n's bce total (0 past the grid: never used). -/
def tBce (c : Dev nD) (n : ℕ) : EReal :=
  if h : n < cfg0.N then blkBce (iblk m c 0 ⟨n, h⟩) (iblk m c 1 ⟨n, h⟩) else 0

/-- Tile n's cross total (0 past the grid: never used). -/
def tCross (c : Dev nD) (n : ℕ) : EReal :=
  if h : n < cfg0.N then blkCross (iblk m c 0 ⟨n, h⟩) (iblk m c 1 ⟨n, h⟩) else 0

/-! ## One step -/

/-- Block 0 after a first step: zero plus the tile's bce total. -/
theorem fst_A (c : Dev nD) (t : Fin cfg0.N) (h0 : t.val % 32 = 0) (y : S1x8x128.Idx) :
    (outsAt0 m c t.val t.isLt).1 y = 0 + blkBce (iblk m c 0 t) (iblk m c 1 t) := by
  rw [outsAt0_A m c t h0]
  dsimp only
  refine (congrFun (Found.out_A_2 (F := Ideal) c (grid0.coords t) (ms0_0 t) (hs0_0 t) (ms0_1 t) (hs0_1 t) (ms0_2 t) (hs0_2 t)
    (ms0_3 t) (hs0_3 t) ((hcond0_0 t).mpr h0) (iblk m c 0 t) (iblk m c 1 t)) y).trans ?_
  refine (Payload.pay1_tile (iblk m c 0 t) (iblk m c 1 t) (k0_pay3 (F := Ideal)) y).trans ?_
  rw [Payload.pay3_apply]
  rfl

/-- Block 1 after a first step: zero plus the tile's cross total. -/
theorem snd_A (c : Dev nD) (t : Fin cfg0.N) (h0 : t.val % 32 = 0) (y : S1x8x128.Idx) :
    (outsAt0 m c t.val t.isLt).2 y = 0 + blkCross (iblk m c 0 t) (iblk m c 1 t) := by
  rw [outsAt0_A m c t h0]
  dsimp only
  refine (congrFun (Found.out_A_3 (F := Ideal) c (grid0.coords t) (ms0_0 t) (hs0_0 t) (ms0_1 t) (hs0_1 t) (ms0_2 t) (hs0_2 t)
    (ms0_3 t) (hs0_3 t) ((hcond0_0 t).mpr h0) (iblk m c 0 t) (iblk m c 1 t)) y).trans ?_
  refine (Payload.pay2_tile (iblk m c 0 t) (iblk m c 1 t) (k0_pay4 (F := Ideal)) y).trans ?_
  rw [Payload.pay4_apply]
  rfl

/-- Block 0 after a later step: what the step before left plus the tile's bce total. -/
theorem fst_B (c : Dev nD) (t : Fin cfg0.N) (h0 : ¬t.val % 32 = 0) (y : S1x8x128.Idx) :
    (outsAt0 m c t.val t.isLt).1 y
      = (outsAt0 m c (t.val - 1) (Nat.lt_of_le_of_lt (Nat.sub_le _ _) t.isLt)).1 y + blkBce (iblk m c 0 t) (iblk m c 1 t) := by
  rw [outsAt0_B m c t h0]
  dsimp only
  refine (congrFun (Found.out_B_2 (F := Ideal) c (grid0.coords t) (ms0_0 t) (hs0_0 t) (ms0_1 t) (hs0_1 t) (ms0_2 t) (hs0_2 t)
    (ms0_3 t) (hs0_3 t) (fun h => h0 ((hcond0_0 t).mp h)) (iblk m c 0 t) (iblk m c 1 t)
    (outsAt0 m c (t.val - 1) (Nat.lt_of_le_of_lt (Nat.sub_le _ _) t.isLt)).1
    (outsAt0 m c (t.val - 1) (Nat.lt_of_le_of_lt (Nat.sub_le _ _) t.isLt)).2) y).trans ?_
  exact Payload.pay1_tile (iblk m c 0 t) (iblk m c 1 t) _ y

/-- Block 1 after a later step: what the step before left plus the tile's cross total. -/
theorem snd_B (c : Dev nD) (t : Fin cfg0.N) (h0 : ¬t.val % 32 = 0) (y : S1x8x128.Idx) :
    (outsAt0 m c t.val t.isLt).2 y
      = (outsAt0 m c (t.val - 1) (Nat.lt_of_le_of_lt (Nat.sub_le _ _) t.isLt)).2 y + blkCross (iblk m c 0 t) (iblk m c 1 t) := by
  rw [outsAt0_B m c t h0]
  dsimp only
  refine (congrFun (Found.out_B_3 (F := Ideal) c (grid0.coords t) (ms0_0 t) (hs0_0 t) (ms0_1 t) (hs0_1 t) (ms0_2 t) (hs0_2 t)
    (ms0_3 t) (hs0_3 t) (fun h => h0 ((hcond0_0 t).mp h)) (iblk m c 0 t) (iblk m c 1 t)
    (outsAt0 m c (t.val - 1) (Nat.lt_of_le_of_lt (Nat.sub_le _ _) t.isLt)).1
    (outsAt0 m c (t.val - 1) (Nat.lt_of_le_of_lt (Nat.sub_le _ _) t.isLt)).2) y).trans ?_
  exact Payload.pay2_tile (iblk m c 0 t) (iblk m c 1 t) _ y

/-! ## The fold over a half's steps -/

/-- Block 0 after point t: zero plus the bce totals of the tiles of t's half up to t. -/
theorem fst_acc (c : Dev nD) (t : Fin cfg0.N) (y : S1x8x128.Idx) :
    (outsAt0 m c t.val t.isLt).1 y = 0 + ∑ s ∈ Finset.range (t.val % 32 + 1), tBce m c (32 * (t.val / 32) + s) := by
  have hN : cfg0.N = 64 := N_0
  have hb : 32 * (t.val / 32) + t.val % 32 < cfg0.N := by have := Nat.div_add_mod t.val 32; have := t.isLt; omega
  have key := Pipeline.eq_accAt_of_mod (N := cfg0.N) (fun n h => (outsAt0 m c n h).1) 32
    (fun n _ => fun _ => 0 + tBce m c n) (fun n _ acc => fun y => acc y + tBce m c n)
    (fun n h hm => funext fun y => (fst_A m c ⟨n, h⟩ hm y).trans (by unfold tBce; rw [dif_pos h]))
    (fun n h hm => funext fun y => (fst_B m c ⟨n + 1, h⟩ hm y).trans (by unfold tBce; rw [dif_pos h]; rfl))
    (by norm_num) t.val t.isLt hb
  refine (congrFun key y).trans ?_
  exact Pipeline.accAt_add_apply (N := cfg0.N) _ _ (fun _ => (0 : EReal)) (fun n _ => tBce m c n) (32 * (t.val / 32)) 31
    (fun _ _ => rfl) (fun _ _ _ _ _ _ => rfl) (t.val % 32) (by omega) hb y

/-- Block 1 after point t: zero plus the cross totals of the tiles of t's half up to t. -/
theorem snd_acc (c : Dev nD) (t : Fin cfg0.N) (y : S1x8x128.Idx) :
    (outsAt0 m c t.val t.isLt).2 y = 0 + ∑ s ∈ Finset.range (t.val % 32 + 1), tCross m c (32 * (t.val / 32) + s) := by
  have hN : cfg0.N = 64 := N_0
  have hb : 32 * (t.val / 32) + t.val % 32 < cfg0.N := by have := Nat.div_add_mod t.val 32; have := t.isLt; omega
  have key := Pipeline.eq_accAt_of_mod (N := cfg0.N) (fun n h => (outsAt0 m c n h).2) 32
    (fun n _ => fun _ => 0 + tCross m c n) (fun n _ acc => fun y => acc y + tCross m c n)
    (fun n h hm => funext fun y => (snd_A m c ⟨n, h⟩ hm y).trans (by unfold tCross; rw [dif_pos h]))
    (fun n h hm => funext fun y => (snd_B m c ⟨n + 1, h⟩ hm y).trans (by unfold tCross; rw [dif_pos h]; rfl))
    (by norm_num) t.val t.isLt hb
  refine (congrFun key y).trans ?_
  exact Pipeline.accAt_add_apply (N := cfg0.N) _ _ (fun _ => (0 : EReal)) (fun n _ => tCross m c n) (32 * (t.val / 32)) 31
    (fun _ _ => rfl) (fun _ _ _ _ _ _ => rfl) (t.val % 32) (by omega) hb y

/-! ## The arrays after the run -/

/-- A half's accumulated total of a per-tile quantity: zero plus the sum over the half's 32 tiles. -/
def halfSum (M : ℕ → EReal) (q : ℕ) : EReal := 0 + ∑ s ∈ Finset.range 32, M (32 * q + s)

/-- Output 0 after the run: every entry of block q holds half q's bce total. -/
def G2 (c : Dev nD) : S2x8x128.Idx → EReal := fun i => halfSum (tBce m c) (i 0).val

/-- Output 1 after the run: every entry of block q holds half q's cross total. -/
def G3 (c : Dev nD) : S2x8x128.Idx → EReal := fun i => halfSum (tCross m c) (i 0).val

/-- The output windows' block index at point t is (t / 32, 0, 0) — decided over the grid. -/
theorem idx2 : ∀ t : Fin cfg0.N, win0_2.index t (0 : Fin 3) = t.val / 32 ∧ win0_2.index t (1 : Fin 3) = 0 ∧ win0_2.index t (2 : Fin 3) = 0 :=
  (by decide +kernel : ∀ t : Fin grid0.N, win0_2.index t (0 : Fin 3) = t.val / 32 ∧ win0_2.index t (1 : Fin 3) = 0 ∧ win0_2.index t (2 : Fin 3) = 0)
theorem idx3 : ∀ t : Fin cfg0.N, win0_3.index t (0 : Fin 3) = t.val / 32 ∧ win0_3.index t (1 : Fin 3) = 0 ∧ win0_3.index t (2 : Fin 3) = 0 :=
  (by decide +kernel : ∀ t : Fin grid0.N, win0_3.index t (0 : Fin 3) = t.val / 32 ∧ win0_3.index t (1 : Fin 3) = 0 ∧ win0_3.index t (2 : Fin 3) = 0)

/-- What a writing-back point writes to output 0 is its block of G2. -/
theorem flushed2_eq (c : Dev nD) (t : Fin cfg0.N) (hf : (cfg0.win 2).flush t = true) :
    (dats m 0 c).flushed 2 t = ((cfg0.win 2).blk t).view.read (Elt Ideal) (G2 m c) := by
  have h31 : t.val % 32 = 31 := (flush0_2 t).mp hf
  show (cfg0.win 2).cut (grid0.coords t) ((dats m 0 c).after 2 t) = _
  rw [after0_2]
  funext y
  show (outsAt0 m c t.val t.isLt).1 y = G2 m c (((cfg0.win 2).blk t).view.emb y)
  rw [fst_acc m c t y, h31]
  have e : ((((cfg0.win 2).blk t).view.emb y) 0).val = t.val / 32 := by
    show win0_2.index t (0 : Fin 3) * 1 + 1 * (y 0).val = _
    have hy : (y 0).val < 1 := (y 0).isLt
    rw [(idx2 t).1]; omega
  unfold G2 halfSum
  rw [e]

/-- What a writing-back point writes to output 1 is its block of G3. -/
theorem flushed3_eq (c : Dev nD) (t : Fin cfg0.N) (hf : (cfg0.win 3).flush t = true) :
    (dats m 0 c).flushed 3 t = ((cfg0.win 3).blk t).view.read (Elt Ideal) (G3 m c) := by
  have h31 : t.val % 32 = 31 := (flush0_3 t).mp hf
  show (cfg0.win 3).cut (grid0.coords t) ((dats m 0 c).after 3 t) = _
  rw [after0_3]
  funext y
  show (outsAt0 m c t.val t.isLt).2 y = G3 m c (((cfg0.win 3).blk t).view.emb y)
  rw [snd_acc m c t y, h31]
  have e : ((((cfg0.win 3).blk t).view.emb y) 0).val = t.val / 32 := by
    show win0_3.index t (0 : Fin 3) * 1 + 1 * (y 0).val = _
    have hy : (y 0).val < 1 := (y 0).isLt
    rw [(idx3 t).1]; omega
  unfold G3 halfSum
  rw [e]

/-- An index of output 0 is in point t's block iff each coordinate is in the block's range on its axis. -/
theorem mem_blk2 (t : Fin cfg0.N) (i : S2x8x128.Idx) :
    i ∈ ((cfg0.win 2).blk t).view.set ↔ ∀ a : Fin 3, win0_2.index t a * S1x8x128.size a ≤ (i a).val ∧ (i a).val < win0_2.index t a * S1x8x128.size a + S1x8x128.size a := by
  show i ∈ ((View.whole main_v0_0).slice (win0_2.rect t)).set ↔ _
  rw [View.set_slice_whole, Rect.mem_set_unit]
  exact Iff.rfl

theorem mem_blk3 (t : Fin cfg0.N) (i : S2x8x128.Idx) :
    i ∈ ((cfg0.win 3).blk t).view.set ↔ ∀ a : Fin 3, win0_3.index t a * S1x8x128.size a ≤ (i a).val ∧ (i a).val < win0_3.index t a * S1x8x128.size a + S1x8x128.size a := by
  show i ∈ ((View.whole main_v0_1).slice (win0_3.rect t)).set ↔ _
  rw [View.set_slice_whole, Rect.mem_set_unit]
  exact Iff.rfl

/-- The last point of half q. -/
def lastOf (q : ℕ) (hq : q < 2) : Fin cfg0.N := ⟨32 * q + 31, by rw [show cfg0.N = 64 from N_0]; omega⟩

/-- Output 0 after the run is G2: the blocks written back after steps 31 and 63 cover it. -/
theorem final2 (c : Dev nD) : (dats m 0 c).arrAt 2 cfg0.N = G2 m c :=
  (dats m 0 c).arrAt_eq_of_cover 2 (G2 m c) (flushed2_eq m c) fun i => by
    have hi0 : (i 0).val < 2 := (i 0).isLt
    have hi1 : (i 1).val < 8 := (i 1).isLt
    have hi2 : (i 2).val < 128 := (i 2).isLt
    refine ⟨lastOf (i 0).val hi0, (flush0_2 _).mpr (by show (32 * (i 0).val + 31) % 32 = 31; omega), ?_⟩
    rw [mem_blk2]
    obtain ⟨e0, e1, e2⟩ := idx2 (lastOf (i 0).val hi0)
    have e0' : win0_2.index (lastOf (i 0).val hi0) (0 : Fin 3) = (i 0).val := by
      rw [e0]; show (32 * (i 0).val + 31) / 32 = (i 0).val; omega
    intro a
    match a with
    | ⟨0, _⟩ => show win0_2.index (lastOf (i 0).val hi0) (0 : Fin 3) * 1 ≤ (i 0).val ∧ (i 0).val < win0_2.index (lastOf (i 0).val hi0) (0 : Fin 3) * 1 + 1
                rw [e0']; omega
    | ⟨1, _⟩ => show win0_2.index (lastOf (i 0).val hi0) (1 : Fin 3) * 8 ≤ (i 1).val ∧ (i 1).val < win0_2.index (lastOf (i 0).val hi0) (1 : Fin 3) * 8 + 8
                rw [e1]; omega
    | ⟨2, _⟩ => show win0_2.index (lastOf (i 0).val hi0) (2 : Fin 3) * 128 ≤ (i 2).val ∧ (i 2).val < win0_2.index (lastOf (i 0).val hi0) (2 : Fin 3) * 128 + 128
                rw [e2]; omega

/-- Output 1 after the run is G3. -/
theorem final3 (c : Dev nD) : (dats m 0 c).arrAt 3 cfg0.N = G3 m c :=
  (dats m 0 c).arrAt_eq_of_cover 3 (G3 m c) (flushed3_eq m c) fun i => by
    have hi0 : (i 0).val < 2 := (i 0).isLt
    have hi1 : (i 1).val < 8 := (i 1).isLt
    have hi2 : (i 2).val < 128 := (i 2).isLt
    refine ⟨lastOf (i 0).val hi0, (flush0_3 _).mpr (by show (32 * (i 0).val + 31) % 32 = 31; omega), ?_⟩
    rw [mem_blk3]
    obtain ⟨e0, e1, e2⟩ := idx3 (lastOf (i 0).val hi0)
    have e0' : win0_3.index (lastOf (i 0).val hi0) (0 : Fin 3) = (i 0).val := by
      rw [e0]; show (32 * (i 0).val + 31) / 32 = (i 0).val; omega
    intro a
    match a with
    | ⟨0, _⟩ => show win0_3.index (lastOf (i 0).val hi0) (0 : Fin 3) * 1 ≤ (i 0).val ∧ (i 0).val < win0_3.index (lastOf (i 0).val hi0) (0 : Fin 3) * 1 + 1
                rw [e0']; omega
    | ⟨1, _⟩ => show win0_3.index (lastOf (i 0).val hi0) (1 : Fin 3) * 8 ≤ (i 1).val ∧ (i 1).val < win0_3.index (lastOf (i 0).val hi0) (1 : Fin 3) * 8 + 8
                rw [e1]; omega
    | ⟨2, _⟩ => show win0_3.index (lastOf (i 0).val hi0) (2 : Fin 3) * 128 ≤ (i 2).val ∧ (i 2).val < win0_3.index (lastOf (i 0).val hi0) (2 : Fin 3) * 128 + 128
                rw [e2]; omega

end Cert.KernelIdeal.Acc

end
-- ==== Proof.KernelValue.lean ====
/-
  The kernel's result is the specification.
  After the region, output 0 holds at every entry of block q the bce total of half q (rows 4096·q … 4096·q + 4095) and output 1
  the cross total. The lines after the region take entry (q, 0, 0) of each for q = 0, 1, add the two (from a zero), divide by
  2^25 and by 8192, and add the quotients. A tile's block of an input read at (r, k) is the input at (128·t + r, k), so the halves'
  totals are the sums over all 8192 rows, regrouped as halves × steps × rows of a tile: the loss of the specification.
-/
import proofs.«157136_j28922309771824_2_alg».proof.Proof.Gen.KernelIdeal.Frame
import proofs.«157136_j28922309771824_2_alg».proof.Proof.KernelAcc
import Idealize.ShloMosaic.Lib.Pipeline.Value
import Idealize.ShloMosaic.Lib.StableHlo.Run
import Idealize.ShloMosaic.PureOps.Ideal.Laws

set_option maxRecDepth 16384

noncomputable section
open Idealize.ShloMosaic Idealize.ShloMosaic.TcCoe Idealize.SL.Sem Idealize.ShloMosaic.ValueIdx
open Idealize.ShloMosaic.Pipeline (Dat)

namespace Cert.KernelIdeal.KValue
open Cert.KernelIdeal Cert.KernelIdeal.Gen Cert.LossSpec Cert.KernelIdeal.Acc

variable (m : (ℓ : Loc nD τ sig) → Buf (Elt Ideal) ℓ) (ρ : Dev nD → PrngReg)

/-- The logits as rows of lanes. -/
def X (c : Dev nD) : Fin 8192 → Fin 4096 → EReal := fun a k => m ((c : Thread nD τ).loc main_arg0) (ix2 a k)
/-- The labels as rows of lanes. -/
def Y (c : Dev nD) : Fin 8192 → Fin 4096 → EReal := fun a k => m ((c : Thread nD τ).loc main_arg1) (ix2 a k)

/-! ## A tile's blocks -/

/-- The input windows' block index at point t is (t, 0) — decided over the grid. -/
theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

/-- Tile t's block of the logits at (r, k) is the logits at row 128·t + r, lane k. -/
theorem iblk0_apply (c : Dev nD) (t : Fin cfg0.N) (r : Fin 128) (k : Fin 4096) (a : Fin 8192) (ha : a.val = 128 * t.val + r.val) :
    (iblk m c 0 t : Vec Ideal S128x4096 .f32) (ix2 r k) = m ((c : Thread nD τ).loc main_arg0) (ix2 a k) := by
  show V m c main_arg0 (((cfg0.win 0).blk t).view.emb (ix2 r k)) = _
  refine congrArg (m ((c : Thread nD τ).loc main_arg0)) (funext fun d => Fin.ext ?_)
  match d with
  | ⟨0, _⟩ => show win0_0.index t (0 : Fin 2) * 128 + 1 * r.val = a.val; rw [(idx0 t).1, ha]; omega
  | ⟨1, _⟩ => show win0_0.index t (1 : Fin 2) * 4096 + 1 * k.val = k.val; rw [(idx0 t).2]; omega

/-- Tile t's block of the labels at (r, k) is the labels at row 128·t + r, lane k. -/
theorem iblk1_apply (c : Dev nD) (t : Fin cfg0.N) (r : Fin 128) (k : Fin 4096) (a : Fin 8192) (ha : a.val = 128 * t.val + r.val) :
    (iblk m c 1 t : Vec Ideal S128x4096 .f32) (ix2 r k) = m ((c : Thread nD τ).loc main_arg1) (ix2 a k) := by
  show V m c main_arg1 (((cfg0.win 1).blk t).view.emb (ix2 r k)) = _
  refine congrArg (m ((c : Thread nD τ).loc main_arg1)) (funext fun d => Fin.ext ?_)
  match d with
  | ⟨0, _⟩ => show win0_1.index t (0 : Fin 2) * 128 + 1 * r.val = a.val; rw [(idx1 t).1, ha]; omega
  | ⟨1, _⟩ => show win0_1.index t (1 : Fin 2) * 4096 + 1 * k.val = k.val; rw [(idx1 t).2]; omega

/-- The bce total of tile 32·q + s is the sum of the bce sums of its 128 rows of the arguments. -/
theorem tBce_eq (c : Dev nD) (q : Fin 2) (s : Fin 32) :
    tBce m c (32 * q.val + s.val) = ∑ r : Fin 128, rowBce (X m c (rowOf (tileOf q s) r)) (Y m c (rowOf (tileOf q s) r)) := by
  have h : 32 * q.val + s.val < cfg0.N := by rw [show cfg0.N = 64 from N_0]; omega
  unfold tBce
  rw [dif_pos h]
  unfold blkBce
  refine Finset.sum_congr rfl fun r _ => ?_
  refine congrArg₂ rowBce (funext fun k => ?_) (funext fun k => ?_)
  · exact iblk0_apply m c ⟨_, h⟩ r k (rowOf (tileOf q s) r) rfl
  · exact iblk1_apply m c ⟨_, h⟩ r k (rowOf (tileOf q s) r) rfl

/-- The cross total of tile 32·q + s is the sum of the cross terms of its 128 rows of the arguments. -/
theorem tCross_eq (c : Dev nD) (q : Fin 2) (s : Fin 32) :
    tCross m c (32 * q.val + s.val) = ∑ r : Fin 128, rowCross (X m c (rowOf (tileOf q s) r)) (Y m c (rowOf (tileOf q s) r)) := by
  have h : 32 * q.val + s.val < cfg0.N := by rw [show cfg0.N = 64 from N_0]; omega
  unfold tCross
  rw [dif_pos h]
  unfold blkCross
  refine Finset.sum_congr rfl fun r _ => ?_
  refine congrArg₂ rowCross (funext fun k => ?_) (funext fun k => ?_)
  · exact iblk0_apply m c ⟨_, h⟩ r k (rowOf (tileOf q s) r) rfl
  · exact iblk1_apply m c ⟨_, h⟩ r k (rowOf (tileOf q s) r) rfl

/-- The two halves' totals of a per-tile quantity that is a sum over the tile's rows add up to the sum over all rows. -/
theorem halves_total (T : ℕ → EReal) (g : Fin 8192 → EReal)
    (hT : ∀ (q : Fin 2) (s : Fin 32), T (32 * q.val + s.val) = ∑ r : Fin 128, g (rowOf (tileOf q s) r)) :
    halfSum T 0 + halfSum T 1 = ∑ i, g i := by
  rw [sum_rows_tiles, sum_tiles_halves, Fin.sum_univ_two]
  unfold halfSum
  rw [zero_add, zero_add, Finset.sum_range, Finset.sum_range]
  exact congrArg₂ (· + ·) (Finset.sum_congr rfl fun s _ => hT 0 s) (Finset.sum_congr rfl fun s _ => hT 1 s)

/-! ## The lines after the region -/

/-- The lines after the region, as one function of the two output arrays. -/
def tailOf (A2 A3 : S2x8x128.Idx → EReal) : S_.Idx → EReal :=
  addf (F := Ideal)
    (Host.divf (F := Ideal)
      (Host.reduceAdd (F := Ideal) (shapeCast S2 (extractStridedSlice S2x1x1 ![0, 0, 0] A2 slices_S2x8x128_S2x1x1_0_0_0) shapeCasts_S2x1x1_S2)
        (constant (F := Ideal) S_ .f32 0x00000000#32) reducesTo_S2_S_d0 h_S_)
      (constant (F := Ideal) S_ .f32 0x4C000000#32))
    (Host.divf (F := Ideal)
      (Host.reduceAdd (F := Ideal) (shapeCast S2 (extractStridedSlice S2x1x1 ![0, 0, 0] A3 slices_S2x8x128_S2x1x1_0_0_0) shapeCasts_S2x1x1_S2)
        (constant (F := Ideal) S_ .f32 0x00000000#32) reducesTo_S2_S_d0 h_S_)
      (constant (F := Ideal) S_ .f32 0x46000000#32))

/-- Entry q of the [2] vector cut out of an output array is the array's entry (q, 0, 0). -/
theorem cut_apply (A : S2x8x128.Idx → EReal) (q : Fin 2) :
    shapeCast S2 (extractStridedSlice S2x1x1 ![0, 0, 0] A slices_S2x8x128_S2x1x1_0_0_0) shapeCasts_S2x1x1_S2 (ix1 q)
      = A (ix3 q 0 0) := by
  refine (shapeCast_apply _ _ _ (ix3 q (0 : Fin 1) (0 : Fin 1)) ?_).trans ?_
  · rw [Shape.rowMajor_val_one, Shape.rowMajor_val_three]
    show (q.val * 1 + 0) * 1 + 0 = q.val
    omega
  · unfold extractStridedSlice
    refine congrArg A (funext fun d => Fin.ext ?_)
    match d with
    | ⟨0, _⟩ => show 0 + q.val = q.val; omega
    | ⟨1, _⟩ => rfl
    | ⟨2, _⟩ => rfl

/-- The sum, from zero, of the [2] vector cut out of an output array: the array's entries (0,0,0) and (1,0,0) added. -/
theorem cut_sum (A : S2x8x128.Idx → EReal) (j : S_.Idx) :
    Host.reduceAdd (F := Ideal) (shapeCast S2 (extractStridedSlice S2x1x1 ![0, 0, 0] A slices_S2x8x128_S2x1x1_0_0_0) shapeCasts_S2x1x1_S2)
        (constant (F := Ideal) S_ .f32 0x00000000#32) reducesTo_S2_S_d0 h_S_ j
      = A (ix3 0 0 0) + A (ix3 1 0 0) := by
  show Ideal.hostReduceAdd reducesTo_S2_S_d0 _ (Ideal.ofBits .f32 0x00000000#32) j = _
  rw [Ideal.hostReduceAdd_total reducesTo_S2_S_d0 (fun b => b.elim0), Ideal.ofBits_zero_f32, zero_add]
  refine (sum_idx1 (n := 2) _).trans ?_
  refine (Fin.sum_univ_two _).trans ?_
  exact congrArg₂ (· + ·) (cut_apply A 0) (cut_apply A 1)

/-- The lines after the region at their one index. -/
theorem tailOf_apply (A2 A3 : S2x8x128.Idx → EReal) (j : S_.Idx) :
    tailOf A2 A3 j = Ideal.div (A2 (ix3 0 0 0) + A2 (ix3 1 0 0)) (Ideal.ofBits .f32 0x4C000000#32)
      + Ideal.div (A3 (ix3 0 0 0) + A3 (ix3 1 0 0)) (Ideal.ofBits .f32 0x46000000#32) := by
  unfold tailOf
  show Ideal.div (Host.reduceAdd (F := Ideal) _ _ _ _ j) (Ideal.ofBits .f32 0x4C000000#32)
      + Ideal.div (Host.reduceAdd (F := Ideal) _ _ _ _ j) (Ideal.ofBits .f32 0x46000000#32) = _
  rw [cut_sum, cut_sum]

/-- The result the frame run states for the last line is the lines after the region applied to the two output arrays. -/
theorem tail_eq (c : Dev nD) :
    Pipeline.afterTail₀ cfgs (dats m) 0 (V0 m) [hostOps1] c main_v9 = tailOf (G2 m c) (G3 m c) := by
  have e2 : Pipeline.withArrays (cfgs 0).spec c (V0 m c) (fun w => (dats m 0 c).arrAt w (cfgs 0).N) (Proc.devRef .tc main_v0_0) = G2 m c :=
    (Pipeline.withArrays_arr spec0 launch0.win.arr_inj c _ _ 2).trans (final2 m c)
  have e3 : Pipeline.withArrays (cfgs 0).spec c (V0 m c) (fun w => (dats m 0 c).arrAt w (cfgs 0).N) (Proc.devRef .tc main_v0_1) = G3 m c :=
    (Pipeline.withArrays_arr spec0 launch0.win.arr_inj c _ _ 3).trans (final3 m c)
  unfold Pipeline.afterTail₀
  show StableHlo.after hostOps1 _ (Proc.devRef .tc main_v9) = _
  after_results
  refine Eq.trans ?_ (congrArg₂ tailOf e2 e3)
  rfl

/-- THE KERNEL IS THE SPECIFICATION: the lines after the region, applied to the two output arrays the region leaves, give the
    loss of the two argument arrays. -/
theorem kernel_is_loss (c : Dev nD) (j : S_.Idx) : tailOf (G2 m c) (G3 m c) j = loss (X m c) (Y m c) := by
  have h2 : halfSum (tBce m c) 0 + halfSum (tBce m c) 1 = ∑ i : Fin 8192, rowBce (X m c i) (Y m c i) :=
    halves_total (tBce m c) (fun i => rowBce (X m c i) (Y m c i)) (tBce_eq m c)
  have h3 : halfSum (tCross m c) 0 + halfSum (tCross m c) 1 = ∑ i : Fin 8192, rowCross (X m c i) (Y m c i) :=
    halves_total (tCross m c) (fun i => rowCross (X m c i) (Y m c i)) (tCross_eq m c)
  rw [tailOf_apply]
  show Ideal.div (halfSum (tBce m c) 0 + halfSum (tBce m c) 1) (Ideal.ofBits .f32 0x4C000000#32)
      + Ideal.div (halfSum (tCross m c) 0 + halfSum (tCross m c) 1) (Ideal.ofBits .f32 0x46000000#32) = _
  rw [h2, h3]
  rfl

/-- The last line's buffer is no array of the pipeline. -/
theorem v9_rest : main_v9 ∈ Pipeline.restRefs sig (cfgs 0).spec :=
  Pipeline.mem_restRefs_of main_v9 (by decide) (by decide)

/-- THE RUN, READ: every weakly fair execution of the kernel program terminates with its result at the loss of the argument
    arrays, the arguments unchanged. -/
theorem run : θ_run defs (onTc (τ := τ) (main (F := Ideal))) ⟨m, fun _ => 0, ρ⟩ fun r => ∀ c : Dev nD,
      r.2.mem ((c.tc : Thread nD τ).loc main_v9) = (fun _ => loss (X m c) (Y m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v9 v9_rest).trans ((tail_eq m c).trans (funext fun j => kernel_is_loss m c j)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.KValue

end
-- ==== Proof.lean ====
/-
  The loss of a [8192, 4096] array of logits x against a [8192, 4096] array of labels y,

    loss = (Σ_i Σ_k bce(x_ik, y_ik)) / 2^25 + (Σ_i cross_i) / 8192,

  computed two ways (Proof/LossSpec.lean states it). The kernel walks the rows in 64 tiles of 128 rows, two halves of 32 tiles:
  at each tile it sums the tile's bce terms and the tile's row cross terms into two running [8,128] blocks per half (reset at a
  half's first tile, written back after its last), and the lines after the region add the two halves' totals and divide. The
  reference sums over the whole arrays at once, and counts the zero and nonzero labels of a row with a 32-bit integer sum.
  On the extended reals the two agree with no hypothesis on the inputs: a sum over the rows is the sum over halves, tiles and
  rows of a tile; zero is neutral for the extended reals' addition; 0 − a is −a; an unordered comparison is the ordered one; and an
  integer sum of at most 4096 bits never wraps, so the converted count is the sum of the bits as numbers.

  The three frames: the two kernel programs' are the generated frame certificates; the reference's is its run with the result
  dropped. The idealization rewrote nothing, so there is nothing to preserve. The algebraic claim: the kernel program's run
  (Proof/KernelValue.lean) and the reference's run (Proof/RefIsSpec.lean) both end at the loss of the arguments.
-/
import proofs.«157136_j28922309771824_2_alg».proof.Defs
import proofs.«157136_j28922309771824_2_alg».proof.Proof.Gen.Kernel
import proofs.«157136_j28922309771824_2_alg».proof.Proof.Gen.Kernel.Frame
import proofs.«157136_j28922309771824_2_alg».proof.Proof.Gen.KernelIdeal
import proofs.«157136_j28922309771824_2_alg».proof.Proof.Gen.KernelIdeal.Frame
import proofs.«157136_j28922309771824_2_alg».proof.Proof.Gen.ReferenceIdeal
import proofs.«157136_j28922309771824_2_alg».proof.Proof.Gen.Pre_finite_inputs
import proofs.«157136_j28922309771824_2_alg».proof.Proof.RefRunPatched
import proofs.«157136_j28922309771824_2_alg».proof.Proof.RefReadPatched
import proofs.«157136_j28922309771824_2_alg».proof.Proof.RefIsSpec
import proofs.«157136_j28922309771824_2_alg».proof.Proof.KernelValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both programs end at the loss of the arguments: the kernel program by its run read through the accumulation over the
    grid, the reference by its operations read one at a time; the arguments agree, so the two losses are one number. -/
theorem algebraic : Cert.algebraic_KernelIdeal_ReferenceIdeal := by
  intro m ρ m' ρ' _ hagree
  refine ⟨fun c => fun _ => Cert.LossSpec.loss (Cert.KernelIdeal.KValue.X m c) (Cert.KernelIdeal.KValue.Y m c),
    Cert.KernelIdeal.KValue.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v37_eq]
  funext i
  rw [Cert.ReferenceIdeal.RefValue.ref_is_loss, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
